-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x512 : Shape := ⟨2, ![128, 512]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x512 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x512 : Shape := ⟨2, ![128, 512]⟩
abbrev S128 : Shape := ⟨1, ![128]⟩
abbrev S512x128 : Shape := ⟨2, ![512, 128]⟩
abbrev S128x128 : Shape := ⟨2, ![128, 128]⟩
abbrev S1x128 : Shape := ⟨2, ![1, 128]⟩
abbrev S80x10000 : Shape := ⟨2, ![80, 10000]⟩
abbrev S80x128 : Shape := ⟨2, ![80, 128]⟩
abbrev S400x10000 : Shape := ⟨2, ![400, 10000]⟩
abbrev S400x128 : Shape := ⟨2, ![400, 128]⟩

abbrev nBuf : Space → Nat
  | .hbm => 17
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x512, .f32⟩
  | .hbm, ⟨3, _⟩ => ⟨S128, .f32⟩
  | .hbm, ⟨4, _⟩ => ⟨S10000x128, .bf16⟩
  | .hbm, ⟨5, _⟩ => ⟨S512x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S10000x128, .f32⟩
  | .hbm, ⟨12, _⟩ => ⟨S10000x128, .bf16⟩
  | .hbm, ⟨13, _⟩ => ⟨S10000x10000, .bf16⟩
  | .hbm, ⟨14, _⟩ => ⟨S10000x128, .f32⟩
  | .hbm, ⟨15, _⟩ => ⟨S10000x128, .bf16⟩
  | .hbm, ⟨16, _⟩ => ⟨S10000x128, .f32⟩
  | .local _ .vmem, ⟨0, _⟩ => ⟨S80x10000, .f32⟩
  | .local _ .vmem, ⟨1, _⟩ => ⟨S80x10000, .f32⟩
  | .local _ .vmem, ⟨2, _⟩ => ⟨S10000x128, .bf16⟩
  | .local _ .vmem, ⟨3, _⟩ => ⟨S80x128, .f32⟩
  | .local _ .vmem, ⟨4, _⟩ => ⟨S80x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S80x128, .f32⟩
  | .local _ .vmem, ⟨9, _⟩ => ⟨S80x128, .f32⟩
  | .local _ .vmem, ⟨10, _⟩ => ⟨S80x128, .bf16⟩
  | .local _ .vmem, ⟨11, _⟩ => ⟨S80x128, .bf16⟩
  | .local _ .vmem, ⟨12, _⟩ => ⟨S80x10000, .bf16⟩
  | .local _ .vmem, ⟨13, _⟩ => ⟨S80x10000, .bf16⟩
  | .local _ .vmem, ⟨14, _⟩ => ⟨S400x10000, .bf16⟩
  | .local _ .vmem, ⟨15, _⟩ => ⟨S400x10000, .bf16⟩
  | .local _ .vmem, ⟨16, _⟩ => ⟨S10000x128, .bf16⟩
  | .local _ .vmem, ⟨17, _⟩ => ⟨S400x128, .f32⟩
  | .local _ .vmem, ⟨18, _⟩ => ⟨S400x128, .f32⟩
  | .local _ .vmem, ⟨19, _⟩ => ⟨S128x128, .f32⟩
  | .local _ .vmem, ⟨20, _⟩ => ⟨S400x128, .f32⟩
  | .local _ .vmem, ⟨21, _⟩ => ⟨S400x128, .f32⟩
  | .local _ .vmem, ⟨22, _⟩ => ⟨S400x128, .bf16⟩
  | .local _ .vmem, ⟨23, _⟩ => ⟨S400x128, .bf16⟩
  | .local _ .vmem, ⟨24, _⟩ => ⟨S400x10000, .bf16⟩
  | .local _ .vmem, ⟨25, _⟩ => ⟨S400x10000, .bf16⟩
  | .local _ .vmem, ⟨26, _⟩ => ⟨S10000x128, .bf16⟩
  | .local _ .vmem, ⟨27, _⟩ => ⟨S400x128, .f32⟩
  | .local _ .vmem, ⟨28, _⟩ => ⟨S400x128, .f32⟩
  | .local _ .vmem, ⟨29, _⟩ => ⟨S128x128, .f32⟩
  | .local _ .vmem, ⟨30, _⟩ => ⟨S400x128, .f32⟩
  | .local _ .vmem, ⟨31, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7_0 : Ref sig .tc := ⟨.hbm, 11, rfl⟩
abbrev main_call0_v7_1 : Ref sig .tc := ⟨.hbm, 12, rfl⟩
abbrev main_call0_v7_2 : Ref sig .tc := ⟨.hbm, 13, rfl⟩
abbrev main_call0_v8_0 : Ref sig .tc := ⟨.hbm, 14, rfl⟩
abbrev main_call0_v8_1 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S80x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x10000 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  transposes_S128x512_S512x128_1_0 : S128x512.Transposes [1, 0] S512x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  shapeCasts_S128_S1x128 : S128.ShapeCasts S1x128
  inb_S80x10000_S80x10000_0_0 : ∀ a, (![0, 0] : Fin 2 → Nat) a + S80x10000.size a ≤ S80x10000.size a
  h_S80x10000 : 0 < S80x10000.numel
  packedbf16_S80x10000_S80x10000_0_0 : (Rect.unit (s := S80x10000) ![0, 0] S80x10000.size inb_S80x10000_S80x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S80x128_S80x128_0_0 : ∀ a, (![0, 0] : Fin 2 → Nat) a + S80x128.size a ≤ S80x128.size a
  h_S80x128 : 0 < S80x128.numel
  packedbf16_S80x128_S80x128_0_0 : (Rect.unit (s := S80x128) ![0, 0] S80x128.size inb_S80x128_S80x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S80x128 : S1x128.Broadcasts S80x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x128_S400x128 : S400x128.ShapeCasts S400x128
  dot_S80x10000_S10000x128_S80x128_1_0_0_1_n_n_wf : DotDims.WF S80x10000 S10000x128 S80x128 [1] [0] [0] [1] [] []
  dot_S80x128_S128x128_S80x128_1_0_0_1_n_n_wf : DotDims.WF S80x128 S128x128 S80x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x128.size a ≤ S10000x128.size a
  hwx0_2 : ∀ i : grid0.Coords, EltTy.bits .f32 = 32 ∨ (Rect.block (s := S10000x128) S80x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x128.size a ≤ S10000x128.size a
  hwx0_6 : ∀ i : grid0.Coords, EltTy.bits .f32 = 32 ∨ (Rect.block (s := S10000x128) S80x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S80x128.size a ≤ S10000x128.size a
  hwx0_7 : ∀ i : grid0.Coords, EltTy.bits .bf16 = 32 ∨ (Rect.block (s := S10000x128) S80x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S80x10000.size a ≤ S10000x10000.size a
  hwx0_8 : ∀ i : grid0.Coords, EltTy.bits .bf16 = 32 ∨ (Rect.block (s := S10000x10000) S80x10000.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .bf16 = 32 ∨ (Rect.block (s := S10000x128) S400x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)

variable [Facts₀]

def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S80x128_S128x128_S80x128_1_0_0_1_n_n : DotDims S80x128 S128x128 S80x128 where
  lhsContracting := [1]
  rhsContracting := [0]
  lhsNonContracting := [0]
  rhsNonContracting := [1]
  lhsBatch := []
  rhsBatch := []
  wf := dot_S80x128_S128x128_S80x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S80x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7_0) S80x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7_1) S80x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v7_2) S80x10000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_call0_v7_2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v7_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v7_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v8_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v8_1) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v7_2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v8_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v8_0) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x512 : Shape := ⟨2, ![128, 512]⟩
abbrev S128 : Shape := ⟨1, ![128]⟩
abbrev S10000x512 : Shape := ⟨2, ![10000, 512]⟩
abbrev S512x128 : Shape := ⟨2, ![512, 128]⟩
abbrev S1x128 : Shape := ⟨2, ![1, 128]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x512, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x512, .f32⟩
  | .hbm, ⟨8, _⟩ => ⟨S512x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  concatenates_S10000x128_S10000x128_S10000x128_S10000x128_S10000x512_d1 : Shape.Concatenates [S10000x128, S10000x128, S10000x128, S10000x128] S10000x512 1
  transposes_S128x512_S512x128_1_0 : S128x512.Transposes [1, 0] S512x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x512_S512x128_S10000x128_1_0_0_1_n_n_wf : DotDims.WF S10000x512 S512x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.KernelRun.lean ====
/-
  The kernel program's run, with the result array named.

  The program is a stretch of host operations and then three kernel launches, one after the other. Running it from
  any memory, every weakly fair execution terminates without a fault, and the contents of every buffer at the end are
  those obtained by folding the program's segments over the launch memory: the host stretch's operations applied, then,
  for each launch in turn, its output arrays replaced by what its grid of blocks writes back. That final valuation is
  read at the result buffer, which gives the result array as the last launch's output array, and at the four
  arguments, which no segment writes.
-/
import proofs.«150744_g3178275799593_cont_9to1_1439_4_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the four argument arrays as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.Payloads.lean ====
/-
  What each kernel body computes, entry by entry, at the exact extended reals.

  Every body works on a block of rows. It forms the block's rows of the propagated features, P(p, d) = Σ_k A(p, k) · Y(k, d)
  (A the block of the propagation matrix, Y the whole feature matrix it is applied to), and adds P's share of the
  linear layer, Σ_d P(p, d) · T(d, o), onto what the rows have accumulated so far: for the first hop that is the bias
  plus the unpropagated rows' own share, for the later hops the partial result handed on by the hop before.
  Changing a number's float format does nothing at the extended reals, so the copies kept in the shorter format are
  the values themselves. Each product starts from an accumulator of zeros, so it is the plain sum of products.
-/
import proofs.«150744_g3178275799593_cont_9to1_1439_4_alg».proof.Proof.Gen.KernelIdeal.Skeleton
import proofs.«150744_g3178275799593_cont_9to1_1439_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Bodies

open Cert.KernelIdeal Cert.KernelIdeal.Gen Idealize.ShloMosaic Idealize.ShloMosaic.TcCoe Idealize.ShloMosaic.ValueIdx

/-! ## The first hop: blocks of 80 rows -/

/-- The copy of the propagation block in the shorter format is the block. -/
theorem copy_apply (A : Vec Ideal S80x10000 .f32) (p : Fin 80) (k : Fin 10000) :
    k0_pay1 A (ix2 p k) = A (ix2 p k) := rfl

/-- The block's rows of `A · Y`. -/
theorem prop80_apply (A : Vec Ideal S80x10000 .f32) (Y : Vec Ideal S10000x128 .bf16) (p : Fin 80) (d : Fin 128) :
    k0_pay2 A Y (ix2 p d) = ∑ k : Fin 10000, A (ix2 p k) * Y (ix2 k d) := by
  unfold k0_pay2
  refine (matmul_plain_zero_apply (φ₁ := .bf16) (φ₂ := .bf16) dot_S80x10000_S10000x128_S80x128_1_0_0_1_n_n.wf none _ _ p d).trans ?_
  refine Finset.sum_congr rfl fun k _ => ?_
  rw [shapeCast_self]
  rfl

/-- The same rows as stored in the shorter format. -/
theorem prop80_stored_apply (A : Vec Ideal S80x10000 .f32) (Y : Vec Ideal S10000x128 .bf16) (p : Fin 80) (d : Fin 128) :
    k0_pay3 A Y (ix2 p d) = ∑ k : Fin 10000, A (ix2 p k) * Y (ix2 k d) :=
  (show k0_pay3 A Y (ix2 p d) = k0_pay2 A Y (ix2 p d) from rfl).trans (prop80_apply A Y p d)

/-- The first partial result: the bias, the rows' own share, and the propagated rows' share. -/
theorem first_apply (A : Vec Ideal S80x10000 .f32) (Y : Vec Ideal S10000x128 .bf16) (B : Vec Ideal S1x128 .f32)
    (X : Vec Ideal S80x128 .f32) (T0 T1 : Vec Ideal S128x128 .f32) (p : Fin 80) (o : Fin 128) :
    k0_pay4 A Y B X T0 T1 (ix2 p o)
      = (B (ix2 (0 : Fin 1) o) + ∑ d : Fin 128, X (ix2 p d) * T0 (ix2 d o))
        + ∑ d : Fin 128, (∑ k : Fin 10000, A (ix2 p k) * Y (ix2 k d)) * T1 (ix2 d o) := by
  unfold k0_pay4
  show (_ + _) + _ = _
  refine congrArg₂ (· + ·) (congrArg₂ (· + ·) ?_ ?_) ?_
  · refine (broadcastTo_1b_ab_apply _ _ p o).trans ?_
    rw [shapeCast_self]
  · refine (matmul_plain_zero_apply (φ₁ := .f32) (φ₂ := .f32) dot_S80x128_S128x128_S80x128_1_0_0_1_n_n.wf none _ _ p o).trans ?_
    refine Finset.sum_congr rfl fun d _ => ?_
    rw [shapeCast_self]
  · refine (matmul_plain_zero_apply (φ₁ := .f32) (φ₂ := .f32) dot_S80x128_S128x128_S80x128_1_0_0_1_n_n.wf none _ _ p o).trans ?_
    refine Finset.sum_congr rfl fun d _ => ?_
    rw [shapeCast_self, prop80_apply A Y p d]

/-! ## The later hops: blocks of 400 rows -/

/-- The block's rows of `A · Y` (middle hop). -/
theorem prop400_apply (A : Vec Ideal S400x10000 .bf16) (Y : Vec Ideal S10000x128 .bf16) (p : Fin 400) (d : Fin 128) :
    k1_pay1 A Y (ix2 p d) = ∑ k : Fin 10000, A (ix2 p k) * Y (ix2 k d) := by
  unfold k1_pay1
  refine (matmul_plain_zero_apply (φ₁ := .bf16) (φ₂ := .bf16) dot_S400x10000_S10000x128_S400x128_1_0_0_1_n_n.wf none _ _ p d).trans ?_
  refine Finset.sum_congr rfl fun k _ => ?_
  rw [shapeCast_self, shapeCast_self]

/-- The same rows as stored in the shorter format. -/
theorem prop400_stored_apply (A : Vec Ideal S400x10000 .bf16) (Y : Vec Ideal S10000x128 .bf16) (p : Fin 400) (d : Fin 128) :
    k1_pay2 A Y (ix2 p d) = ∑ k : Fin 10000, A (ix2 p k) * Y (ix2 k d) :=
  (show k1_pay2 A Y (ix2 p d) = k1_pay1 A Y (ix2 p d) from rfl).trans (prop400_apply A Y p d)

/-- The middle hop adds its share onto the partial result it is handed. -/
theorem next_apply (A : Vec Ideal S400x10000 .bf16) (Y : Vec Ideal S10000x128 .bf16) (P : Vec Ideal S400x128 .f32)
    (T : Vec Ideal S128x128 .f32) (p : Fin 400) (o : Fin 128) :
    k1_pay3 A Y P T (ix2 p o)
      = P (ix2 p o) + ∑ d : Fin 128, (∑ k : Fin 10000, A (ix2 p k) * Y (ix2 k d)) * T (ix2 d o) := by
  unfold k1_pay3
  show _ + _ = _
  refine congrArg₂ (· + ·) ?_ ?_
  · rw [shapeCast_self]
  · refine (matmul_plain_zero_apply (φ₁ := .f32) (φ₂ := .f32) dot_S400x128_S128x128_S400x128_1_0_0_1_n_n.wf none _ _ p o).trans ?_
    refine Finset.sum_congr rfl fun d _ => ?_
    rw [shapeCast_self, prop400_apply A Y p d]

/-- The last hop does the same, its propagated rows never stored. -/
theorem last_apply (A : Vec Ideal S400x10000 .bf16) (Y : Vec Ideal S10000x128 .bf16) (P : Vec Ideal S400x128 .f32)
    (T : Vec Ideal S128x128 .f32) (p : Fin 400) (o : Fin 128) :
    k2_pay1 A Y P T (ix2 p o)
      = P (ix2 p o) + ∑ d : Fin 128, (∑ k : Fin 10000, A (ix2 p k) * Y (ix2 k d)) * T (ix2 d o) := by
  unfold k2_pay1
  show _ + _ = _
  refine congrArg₂ (· + ·) ?_ ?_
  · rw [shapeCast_self]
  · refine (matmul_plain_zero_apply (φ₁ := .f32) (φ₂ := .f32) dot_S400x128_S128x128_S400x128_1_0_0_1_n_n.wf none _ _ p o).trans ?_
    refine Finset.sum_congr rfl fun d _ => ?_
    refine congrArg₂ (· * ·) ?_ ?_
    · refine (matmul_plain_zero_apply (φ₁ := .bf16) (φ₂ := .bf16) dot_S400x10000_S10000x128_S400x128_1_0_0_1_n_n.wf none _ _ p d).trans ?_
      refine Finset.sum_congr rfl fun k _ => ?_
      rw [shapeCast_self, shapeCast_self]
    · rw [shapeCast_self]

end Cert.KernelIdeal.Bodies

end
-- ==== Proof.Spec.lean ====
/-
  Three propagation hops followed by one linear layer, as a single function of the four arrays.

  For features x (10000 × 128), a propagation matrix A (10000 × 10000), weights W (128 × 512) and a bias b (128), put
  y₀ = x and yₛ₊₁ = A · yₛ. The layer's input at row n is the four rows y₀(n), y₁(n), y₂(n), y₃(n) laid end to end
  (512 numbers), so its output at (n, o) is b(o) + Σ_j cat(n, j) · W(o, j). Column j = 128 s + d of the joined row is
  yₛ(n, d), so the 512-term sum is the sum of four 128-term sums, the s-th one pairing yₛ(n, ·) with the s-th band of
  128 columns of W. That splitting of a sum into its four stretches is the only law used, and it holds in any
  commutative monoid: nothing here needs the entries to be finite.
-/
import Idealize.ShloMosaic.PureOps.Ideal
import Idealize.ShloMosaic.Lib.ValueIdx

open scoped BigOperators

noncomputable section

namespace Cert.Hops

open Idealize.ShloMosaic Idealize.ShloMosaic.ValueIdx

/-- A matrix of extended reals with `a` rows and `b` columns. -/
abbrev Mat (a b : ℕ) : Type := (⟨2, ![a, b]⟩ : Shape).Idx → EReal

/-- One hop: `(A · Y)(n, d) = Σ_k A(n, k) · Y(k, d)`. -/
def hop (A : Mat 10000 10000) (Y : Mat 10000 128) : Mat 10000 128 :=
  fun i => ∑ k : Fin 10000, A (ix2 (i 0) k) * Y (ix2 k (i 1))

/-- The band of 128 columns of `W` starting at column `off`, transposed: `T(d, o) = W(o, off + d)`. -/
def band (W : Mat 128 512) (off : ℕ) (hoff : off + 128 ≤ 512) : Mat 128 128 :=
  fun i => W (ix2 (i 1) ⟨off + (i 0).val, by have h := idx2_lt0 i; omega⟩)

/-- What one hop's rows contribute to the layer: `Σ_d Y(n, d) · T(d, o)`. -/
def share (Y : Mat 10000 128) (T : Mat 128 128) : Mat 10000 128 :=
  fun i => ∑ d : Fin 128, Y (ix2 (i 0) d) * T (ix2 d (i 1))

/-- The first hop's partial result from the arrays its kernel is handed: the bias row `B` (1 × 128), the rows' own
    share through `T0`, and the share of `A · Y` through `T1`. -/
def first (A : Mat 10000 10000) (Y X : Mat 10000 128) (T0 T1 : Mat 128 128) (B : Mat 1 128) : Mat 10000 128 :=
  fun i => (B (ix2 (0 : Fin 1) (i 1)) + share X T0 i) + share (hop A Y) T1 i

/-- A later hop's partial result: the share of `A · Y` through `T` added onto the partial result `P` before it. -/
def next (P : Mat 10000 128) (A : Mat 10000 10000) (Y : Mat 10000 128) (T : Mat 128 128) : Mat 10000 128 :=
  fun i => P i + share (hop A Y) T i

/-- The whole computation: the bias, then the four hops' shares added one after the other. -/
def result (x : Mat 10000 128) (A : Mat 10000 10000) (W : Mat 128 512)
    (b : (⟨1, ![128]⟩ : Shape).Idx → EReal) : Mat 10000 128 :=
  fun i => (((b (ix1 (i 1)) + share x (band W 0 (by omega)) i)
      + share (hop A x) (band W 128 (by omega)) i)
      + share (hop A (hop A x)) (band W 256 (by omega)) i)
      + share (hop A (hop A (hop A x))) (band W 384 (by omega)) i

/-- A sum over 512 positions is the sum over its four stretches of 128. -/
theorem sum_four_stretches {M : Type*} [AddCommMonoid M] (f : Fin 512 → M) :
    ∑ j : Fin 512, f j
      = (((∑ d : Fin 128, f ⟨0 + d.val, by omega⟩) + ∑ d : Fin 128, f ⟨128 + d.val, by omega⟩)
          + ∑ d : Fin 128, f ⟨256 + d.val, by omega⟩) + ∑ d : Fin 128, f ⟨384 + d.val, by omega⟩ := by
  have h3 : ∑ j : Fin 512, f j
      = ∑ i : Fin 384, f ⟨i.val, by omega⟩ + ∑ d : Fin 128, f ⟨384 + d.val, by omega⟩ :=
    Fin.sum_univ_add (a := 384) (b := 128) f
  have h2 : ∑ i : Fin 384, f ⟨i.val, by omega⟩
      = ∑ i : Fin 256, f ⟨i.val, by omega⟩ + ∑ d : Fin 128, f ⟨256 + d.val, by omega⟩ :=
    Fin.sum_univ_add (a := 256) (b := 128) fun i : Fin 384 => f ⟨i.val, by omega⟩
  have h1 : ∑ i : Fin 256, f ⟨i.val, by omega⟩
      = ∑ d : Fin 128, f ⟨d.val, by omega⟩ + ∑ d : Fin 128, f ⟨128 + d.val, by omega⟩ :=
    Fin.sum_univ_add (a := 128) (b := 128) fun i : Fin 256 => f ⟨i.val, by omega⟩
  have h0 : ∑ d : Fin 128, f ⟨d.val, by omega⟩ = ∑ d : Fin 128, f ⟨0 + d.val, by omega⟩ :=
    Finset.sum_congr rfl fun d _ => congrArg f (Fin.ext (Nat.zero_add d.val).symm)
  rw [h3, h2, h1, h0]

/-- The bias added last is the bias added first. -/
theorem bias_last {M : Type*} [AddCommMonoid M] (b s0 s1 s2 s3 : M) :
    (((s0 + s1) + s2) + s3) + b = (((b + s0) + s1) + s2) + s3 := by
  rw [add_comm _ b, ← add_assoc, ← add_assoc, ← add_assoc]

end Cert.Hops

end
-- ==== Proof.HopFirst.lean ====
/-
  The first hop's three arrays, each as one function of what its kernel finds.

  The kernel runs once per block of 80 rows, 125 blocks in all. At block t it is handed rows 80 t … 80 t + 79 of the
  propagation matrix A and of the features X, and the whole of the feature copy Y, the two weight bands T0, T1 and the
  bias row B. It writes back the same rows of three arrays: the partial result, the propagated features A · Y, and a
  copy of A. Row 80 t + p of each array is therefore what block t computes at its row p, and since every row lies in
  exactly the block numbered by its quotient by 80, the blocks fill the arrays: each array ends as one function of the
  six inputs, index by index.
-/
import proofs.«150744_g3178275799593_cont_9to1_1439_4_alg».proof.Proof.Gen.KernelIdeal.Frame
import proofs.«150744_g3178275799593_cont_9to1_1439_4_alg».proof.Proof.Payloads
import proofs.«150744_g3178275799593_cont_9to1_1439_4_alg».proof.Proof.Spec
import Idealize.ShloMosaic.Lib.Pipeline.Value
import Idealize.ShloMosaic.Lib.ValueIdx

set_option maxRecDepth 16384

open scoped BigOperators

noncomputable section

namespace Cert.KernelIdeal.HopFirst

open Cert.KernelIdeal Cert.KernelIdeal.Gen Cert.KernelIdeal.Bodies Cert.Hops
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 125 points: the row-blocked windows sit at block (t, 0), the windows
    held whole at block (0, 0). -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of block `t` is a row of the array. -/
theorem row_lt (t : Fin cfg0.N) (p : Fin 80) : 80 * t.val + p.val < 10000 := by
  have hN : cfg0.N = 125 := N_0
  have ht : t.val < cfg0.N := t.isLt
  have hp : p.val < 80 := p.isLt
  omega

/-- Row `p` of block `t`, as a row of the array. -/
abbrev row (t : Fin cfg0.N) (p : Fin 80) : Fin 10000 := ⟨80 * t.val + p.val, row_lt t p⟩

/-! ## Each input window's block, read off its array -/

/-- Block `t` of the propagation matrix is its rows 80 t … 80 t + 79. -/
theorem blockA (c : Dev nD) (t : Fin cfg0.N) (p : Fin 80) (k : Fin 10000) :
    (iblk0 V c 0 t : Vec Ideal S80x10000 .f32) (ix2 p k) = (V c main_arg1 : S10000x10000.Idx → EReal) (ix2 (row t p) k) := by
  obtain ⟨h0, h1, -⟩ := idx t
  unfold iblk0
  rw [View.read_apply]
  show (V c main_arg1 : S10000x10000.Idx → EReal) _ = (V c main_arg1 : S10000x10000.Idx → EReal) _
  refine congrArg (V c main_arg1 : S10000x10000.Idx → EReal) ?_
  funext a
  apply Fin.ext
  match a with
  | ⟨0, _⟩ => show win0_0.index t (0 : Fin 2) * 80 + 1 * p.val = 80 * t.val + p.val; rw [h0]; omega
  | ⟨1, _⟩ => show win0_0.index t (1 : Fin 2) * 10000 + 1 * k.val = k.val; rw [h1]; omega

/-- The feature copy is held whole. -/
theorem blockY (c : Dev nD) (t : Fin cfg0.N) (k : Fin 10000) (d : Fin 128) :
    (iblk0 V c 1 t : Vec Ideal S10000x128 .bf16) (ix2 k d) = (V c main_call0_v0 : S10000x128.Idx → EReal) (ix2 k d) := by
  obtain ⟨-, -, h0, h1, -⟩ := idx t
  unfold iblk0
  rw [View.read_apply]
  show (V c main_call0_v0 : S10000x128.Idx → EReal) _ = (V c main_call0_v0 : S10000x128.Idx → EReal) _
  refine congrArg (V c main_call0_v0 : S10000x128.Idx → EReal) ?_
  funext a
  apply Fin.ext
  match a with
  | ⟨0, _⟩ => show win0_1.index t (0 : Fin 2) * 10000 + 1 * k.val = k.val; rw [h0]; omega
  | ⟨1, _⟩ => show win0_1.index t (1 : Fin 2) * 128 + 1 * d.val = d.val; rw [h1]; omega

/-- Block `t` of the features is their rows 80 t … 80 t + 79. -/
theorem blockX (c : Dev nD) (t : Fin cfg0.N) (p : Fin 80) (d : Fin 128) :
    (iblk0 V c 2 t : Vec Ideal S80x128 .f32) (ix2 p d) = (V c main_arg0 : S10000x128.Idx → EReal) (ix2 (row t p) d) := by
  obtain ⟨-, -, -, -, h0, h1, -⟩ := idx t
  unfold iblk0
  rw [View.read_apply]
  show (V c main_arg0 : S10000x128.Idx → EReal) _ = (V c main_arg0 : S10000x128.Idx → EReal) _
  refine congrArg (V c main_arg0 : S10000x128.Idx → EReal) ?_
  funext a
  apply Fin.ext
  match a with
  | ⟨0, _⟩ => show win0_2.index t (0 : Fin 2) * 80 + 1 * p.val = 80 * t.val + p.val; rw [h0]; omega
  | ⟨1, _⟩ => show win0_2.index t (1 : Fin 2) * 128 + 1 * d.val = d.val; rw [h1]; omega

/-- The first weight band is held whole. -/
theorem blockT0 (c : Dev nD) (t : Fin cfg0.N) (d : Fin 128) (o : Fin 128) :
    (iblk0 V c 3 t : Vec Ideal S128x128 .f32) (ix2 d o) = (V c main_call0_v2 : S128x128.Idx → EReal) (ix2 d o) := by
  obtain ⟨-, -, -, -, -, -, h0, h1, -⟩ := idx t
  unfold iblk0
  rw [View.read_apply]
  show (V c main_call0_v2 : S128x128.Idx → EReal) _ = (V c main_call0_v2 : S128x128.Idx → EReal) _
  refine congrArg (V c main_call0_v2 : S128x128.Idx → EReal) ?_
  funext a
  apply Fin.ext
  match a with
  | ⟨0, _⟩ => show win0_3.index t (0 : Fin 2) * 128 + 1 * d.val = d.val; rw [h0]; omega
  | ⟨1, _⟩ => show win0_3.index t (1 : Fin 2) * 128 + 1 * o.val = o.val; rw [h1]; omega

/-- The second weight band is held whole. -/
theorem blockT1 (c : Dev nD) (t : Fin cfg0.N) (d : Fin 128) (o : Fin 128) :
    (iblk0 V c 4 t : Vec Ideal S128x128 .f32) (ix2 d o) = (V c main_call0_v3 : S128x128.Idx → EReal) (ix2 d o) := by
  obtain ⟨-, -, -, -, -, -, -, -, h0, h1, -⟩ := idx t
  unfold iblk0
  rw [View.read_apply]
  show (V c main_call0_v3 : S128x128.Idx → EReal) _ = (V c main_call0_v3 : S128x128.Idx → EReal) _
  refine congrArg (V c main_call0_v3 : S128x128.Idx → EReal) ?_
  funext a
  apply Fin.ext
  match a with
  | ⟨0, _⟩ => show win0_4.index t (0 : Fin 2) * 128 + 1 * d.val = d.val; rw [h0]; omega
  | ⟨1, _⟩ => show win0_4.index t (1 : Fin 2) * 128 + 1 * o.val = o.val; rw [h1]; omega

/-- The bias row is held whole. -/
theorem blockB (c : Dev nD) (t : Fin cfg0.N) (z : Fin 1) (o : Fin 128) :
    (iblk0 V c 5 t : Vec Ideal S1x128 .f32) (ix2 z o) = (V c main_call0_v6 : S1x128.Idx → EReal) (ix2 z o) := by
  obtain ⟨-, -, -, -, -, -, -, -, -, -, h0, h1, -⟩ := idx t
  unfold iblk0
  rw [View.read_apply]
  show (V c main_call0_v6 : S1x128.Idx → EReal) _ = (V c main_call0_v6 : S1x128.Idx → EReal) _
  refine congrArg (V c main_call0_v6 : S1x128.Idx → EReal) ?_
  funext a
  apply Fin.ext
  match a with
  | ⟨0, _⟩ => show win0_5.index t (0 : Fin 2) * 1 + 1 * z.val = z.val; rw [h0]; omega
  | ⟨1, _⟩ => show win0_5.index t (1 : Fin 2) * 128 + 1 * o.val = o.val; rw [h1]; omega

/-! ## The partial result (output window 6) -/

/-- Where entry (p, o) of block `t` sits in the array. -/
theorem embPart (t : Fin cfg0.N) (p : Fin 80) (o : Fin 128) :
    ((cfg0.win 6).blk t).view.emb (ix2 p o) = (ix2 (row t p) o : S10000x128.Idx) := by
  obtain ⟨-, -, -, -, -, -, -, -, -, -, -, -, h0, h1, -⟩ := idx t
  funext a
  apply Fin.ext
  match a with
  | ⟨0, _⟩ => show win0_6.index t (0 : Fin 2) * 80 + 1 * p.val = 80 * t.val + p.val; rw [h0]; omega
  | ⟨1, _⟩ => show win0_6.index t (1 : Fin 2) * 128 + 1 * o.val = o.val; rw [h1]; omega

/-- What point `t` writes back is block `t` of the first partial result. -/
theorem flushedPart (c : Dev nD) (t : Fin cfg0.N) :
    (dat0 V c).flushed 6 t = ((cfg0.win 6).blk t).view.read (Elt Ideal)
      (first (V c main_arg1) (V c main_call0_v0) (V c main_arg0) (V c main_call0_v2) (V c main_call0_v3) (V c main_call0_v6)) := by
  show (cfg0.win 6).cut (grid0.coords t) ((dat0 V c).after 6 t) = _
  rw [after0_6]
  unfold out0_6
  rw [View.canon_unit_zero hz]
  simp only [View.ld_unit_zero (S := S80x10000) hz, View.ld_unit_zero (S := S10000x128) hz, View.ld_unit_zero (S := S80x128) hz,
    View.ld_unit_zero (S := S128x128) hz, View.ld_unit_zero (S := S1x128) hz]
  funext j
  obtain ⟨p, o, rfl⟩ : ∃ (p : Fin 80) (o : Fin 128), j = ix2 p o := ⟨j 0, j 1, eq_ix2 j⟩
  show k0_pay4 (iblk0 V c 0 t) (iblk0 V c 1 t) (iblk0 V c 5 t) (iblk0 V c 2 t) (iblk0 V c 3 t) (iblk0 V c 4 t) (ix2 p o)
    = first (V c main_arg1) (V c main_call0_v0) (V c main_arg0) (V c main_call0_v2) (V c main_call0_v3) (V c main_call0_v6)
        (((cfg0.win 6).blk t).view.emb (ix2 p o))
  rw [embPart t p o]
  refine (first_apply (iblk0 V c 0 t) (iblk0 V c 1 t) (iblk0 V c 5 t) (iblk0 V c 2 t) (iblk0 V c 3 t) (iblk0 V c 4 t) p o).trans ?_
  unfold first share hop
  refine congrArg₂ (· + ·) (congrArg₂ (· + ·) ?_ ?_) ?_
  · exact blockB V c t 0 o
  · exact Finset.sum_congr rfl fun d _ => congrArg₂ (· * ·) (blockX V c t p d) (blockT0 V c t d o)
  · exact Finset.sum_congr rfl fun d _ => congrArg₂ (· * ·)
      (Finset.sum_congr rfl fun k _ => congrArg₂ (· * ·) (blockA V c t p k) (blockY V c t k d)) (blockT1 V c t d o)

/-- An index is in point `t`'s block iff each coordinate is in the block's range on its axis. -/
theorem memPart (t : Fin cfg0.N) (i : S10000x128.Idx) :
    i ∈ ((cfg0.win 6).blk t).view.set ↔ ∀ a : Fin 2, win0_6.index t a * S80x128.size a ≤ (i a).val
      ∧ (i a).val < win0_6.index t a * S80x128.size a + S80x128.size a := by
  show i ∈ ((View.whole main_call0_v7_0).slice (win0_6.rect t)).set ↔ _
  rw [View.set_slice_whole, Rect.mem_set_unit]
  exact Iff.rfl

/-- Every row is in the block numbered by its quotient by 80. -/
theorem coverPart (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  have hN : cfg0.N = 125 := N_0
  have hq : (i 0).val / 80 < cfg0.N := by rw [hN]; omega
  obtain ⟨-, -, -, -, -, -, -, -, -, -, -, -, h0, h1, -⟩ := idx ⟨(i 0).val / 80, hq⟩
  have h0' : win0_6.index ⟨(i 0).val / 80, hq⟩ (0 : Fin 2) = (i 0).val / 80 := h0
  refine ⟨⟨(i 0).val / 80, hq⟩, flush0_6 _, ?_⟩
  rw [memPart]
  intro a
  match a with
  | ⟨0, _⟩ =>
    show win0_6.index ⟨(i 0).val / 80, hq⟩ (0 : Fin 2) * 80 ≤ (i 0).val
      ∧ (i 0).val < win0_6.index ⟨(i 0).val / 80, hq⟩ (0 : Fin 2) * 80 + 80
    rw [h0']; omega
  | ⟨1, _⟩ =>
    show win0_6.index ⟨(i 0).val / 80, hq⟩ (1 : Fin 2) * 128 ≤ (i 1).val
      ∧ (i 1).val < win0_6.index ⟨(i 0).val / 80, hq⟩ (1 : Fin 2) * 128 + 128
    rw [h1]; omega

/-- The partial-result array after the region. -/
theorem finalPart (c : Dev nD) :
    (dat0 V c).arrAt 6 cfg0.N
      = first (V c main_arg1) (V c main_call0_v0) (V c main_arg0) (V c main_call0_v2) (V c main_call0_v3) (V c main_call0_v6) :=
  (dat0 V c).arrAt_eq_of_cover 6 _ (fun t _ => flushedPart V c t) coverPart

/-! ## The propagated features (output window 7) -/

theorem embFeat (t : Fin cfg0.N) (p : Fin 80) (d : Fin 128) :
    ((cfg0.win 7).blk t).view.emb (ix2 p d) = (ix2 (row t p) d : S10000x128.Idx) := by
  obtain ⟨-, -, -, -, -, -, -, -, -, -, -, -, -, -, h0, h1, -⟩ := idx t
  funext a
  apply Fin.ext
  match a with
  | ⟨0, _⟩ => show win0_7.index t (0 : Fin 2) * 80 + 1 * p.val = 80 * t.val + p.val; rw [h0]; omega
  | ⟨1, _⟩ => show win0_7.index t (1 : Fin 2) * 128 + 1 * d.val = d.val; rw [h1]; omega

/-- What point `t` writes back is block `t` of `A · Y`. -/
theorem flushedFeat (c : Dev nD) (t : Fin cfg0.N) :
    (dat0 V c).flushed 7 t = ((cfg0.win 7).blk t).view.read (Elt Ideal) (hop (V c main_arg1) (V c main_call0_v0)) := by
  show (cfg0.win 7).cut (grid0.coords t) ((dat0 V c).after 7 t) = _
  rw [after0_7]
  unfold out0_7
  rw [View.canon_unit_zero hz]
  simp only [View.ld_unit_zero (S := S80x10000) hz, View.ld_unit_zero (S := S10000x128) hz]
  funext j
  obtain ⟨p, d, rfl⟩ : ∃ (p : Fin 80) (d : Fin 128), j = ix2 p d := ⟨j 0, j 1, eq_ix2 j⟩
  show k0_pay3 (iblk0 V c 0 t) (iblk0 V c 1 t) (ix2 p d)
    = hop (V c main_arg1) (V c main_call0_v0) (((cfg0.win 7).blk t).view.emb (ix2 p d))
  rw [embFeat t p d]
  refine (prop80_stored_apply (iblk0 V c 0 t) (iblk0 V c 1 t) p d).trans ?_
  unfold hop
  exact Finset.sum_congr rfl fun k _ => congrArg₂ (· * ·) (blockA V c t p k) (blockY V c t k d)

theorem memFeat (t : Fin cfg0.N) (i : S10000x128.Idx) :
    i ∈ ((cfg0.win 7).blk t).view.set ↔ ∀ a : Fin 2, win0_7.index t a * S80x128.size a ≤ (i a).val
      ∧ (i a).val < win0_7.index t a * S80x128.size a + S80x128.size a := by
  show i ∈ ((View.whole main_call0_v7_1).slice (win0_7.rect t)).set ↔ _
  rw [View.set_slice_whole, Rect.mem_set_unit]
  exact Iff.rfl

theorem coverFeat (i : S10000x128.Idx) :
    ∃ t : Fin cfg0.N, (cfg0.win 7).flush t = true ∧ i ∈ ((cfg0.win 7).blk t).view.set := by
  have hi0 : (i 0).val < 10000 := idx2_lt0 i
  have hi1 : (i 1).val < 128 := idx2_lt1 i
  have hN : cfg0.N = 125 := N_0
  have hq : (i 0).val / 80 < cfg0.N := by rw [hN]; omega
  obtain ⟨-, -, -, -, -, -, -, -, -, -, -, -, -, -, h0, h1, -⟩ := idx ⟨(i 0).val / 80, hq⟩
  have h0' : win0_7.index ⟨(i 0).val / 80, hq⟩ (0 : Fin 2) = (i 0).val / 80 := h0
  refine ⟨⟨(i 0).val / 80, hq⟩, flush0_7 _, ?_⟩
  rw [memFeat]
  intro a
  match a with
  | ⟨0, _⟩ =>
    show win0_7.index ⟨(i 0).val / 80, hq⟩ (0 : Fin 2) * 80 ≤ (i 0).val
      ∧ (i 0).val < win0_7.index ⟨(i 0).val / 80, hq⟩ (0 : Fin 2) * 80 + 80
    rw [h0']; omega
  | ⟨1, _⟩ =>
    show win0_7.index ⟨(i 0).val / 80, hq⟩ (1 : Fin 2) * 128 ≤ (i 1).val
      ∧ (i 1).val < win0_7.index ⟨(i 0).val / 80, hq⟩ (1 : Fin 2) * 128 + 128
    rw [h1]; omega

/-- The propagated-features array after the region. -/
theorem finalFeat (c : Dev nD) :
    (dat0 V c).arrAt 7 cfg0.N = hop (V c main_arg1) (V c main_call0_v0) :=
  (dat0 V c).arrAt_eq_of_cover 7 _ (fun t _ => flushedFeat V c t) coverFeat

/-! ## The copy of the propagation matrix (output window 8) -/

theorem embCopy (t : Fin cfg0.N) (p : Fin 80) (k : Fin 10000) :
    ((cfg0.win 8).blk t).view.emb (ix2 p k) = (ix2 (row t p) k : S10000x10000.Idx) := by
  obtain ⟨-, -, -, -, -, -, -, -, -, -, -, -, -, -, -, -, h0, h1⟩ := idx t
  funext a
  apply Fin.ext
  match a with
  | ⟨0, _⟩ => show win0_8.index t (0 : Fin 2) * 80 + 1 * p.val = 80 * t.val + p.val; rw [h0]; omega
  | ⟨1, _⟩ => show win0_8.index t (1 : Fin 2) * 10000 + 1 * k.val = k.val; rw [h1]; omega

/-- What point `t` writes back is block `t` of the propagation matrix itself. -/
theorem flushedCopy (c : Dev nD) (t : Fin cfg0.N) :
    (dat0 V c).flushed 8 t = ((cfg0.win 8).blk t).view.read (Elt Ideal) (V c main_arg1 : S10000x10000.Idx → EReal) := by
  show (cfg0.win 8).cut (grid0.coords t) ((dat0 V c).after 8 t) = _
  rw [after0_8]
  unfold out0_8
  rw [View.canon_unit_zero hz]
  simp only [View.ld_unit_zero (S := S80x10000) hz]
  funext j
  obtain ⟨p, k, rfl⟩ : ∃ (p : Fin 80) (k : Fin 10000), j = ix2 p k := ⟨j 0, j 1, eq_ix2 j⟩
  show k0_pay1 (iblk0 V c 0 t) (ix2 p k)
    = (V c main_arg1 : S10000x10000.Idx → EReal) (((cfg0.win 8).blk t).view.emb (ix2 p k))
  rw [embCopy t p k]
  exact (copy_apply (iblk0 V c 0 t) p k).trans (blockA V c t p k)

theorem memCopy (t : Fin cfg0.N) (i : S10000x10000.Idx) :
    i ∈ ((cfg0.win 8).blk t).view.set ↔ ∀ a : Fin 2, win0_8.index t a * S80x10000.size a ≤ (i a).val
      ∧ (i a).val < win0_8.index t a * S80x10000.size a + S80x10000.size a := by
  show i ∈ ((View.whole main_call0_v7_2).slice (win0_8.rect t)).set ↔ _
  rw [View.set_slice_whole, Rect.mem_set_unit]
  exact Iff.rfl

theorem coverCopy (i : S10000x10000.Idx) :
    ∃ t : Fin cfg0.N, (cfg0.win 8).flush t = true ∧ i ∈ ((cfg0.win 8).blk t).view.set := by
  have hi0 : (i 0).val < 10000 := idx2_lt0 i
  have hi1 : (i 1).val < 10000 := idx2_lt1 i
  have hN : cfg0.N = 125 := N_0
  have hq : (i 0).val / 80 < cfg0.N := by rw [hN]; omega
  obtain ⟨-, -, -, -, -, -, -, -, -, -, -, -, -, -, -, -, h0, h1⟩ := idx ⟨(i 0).val / 80, hq⟩
  have h0' : win0_8.index ⟨(i 0).val / 80, hq⟩ (0 : Fin 2) = (i 0).val / 80 := h0
  refine ⟨⟨(i 0).val / 80, hq⟩, flush0_8 _, ?_⟩
  rw [memCopy]
  intro a
  match a with
  | ⟨0, _⟩ =>
    show win0_8.index ⟨(i 0).val / 80, hq⟩ (0 : Fin 2) * 80 ≤ (i 0).val
      ∧ (i 0).val < win0_8.index ⟨(i 0).val / 80, hq⟩ (0 : Fin 2) * 80 + 80
    rw [h0']; omega
  | ⟨1, _⟩ =>
    show win0_8.index ⟨(i 0).val / 80, hq⟩ (1 : Fin 2) * 10000 ≤ (i 1).val
      ∧ (i 1).val < win0_8.index ⟨(i 0).val / 80, hq⟩ (1 : Fin 2) * 10000 + 10000
    rw [h1]; omega

/-- The copy after the region is the propagation matrix. -/
theorem finalCopy (c : Dev nD) :
    (dat0 V c).arrAt 8 cfg0.N = (V c main_arg1 : S10000x10000.Idx → EReal) :=
  (dat0 V c).arrAt_eq_of_cover 8 _ (fun t _ => flushedCopy V c t) coverCopy

end Cert.KernelIdeal.HopFirst

end
-- ==== Proof.HopMid.lean ====
/-
  The middle hop's two arrays, each as one function of what its kernel finds.

  The kernel runs once per block of 400 rows, 25 blocks in all. At block t it is handed rows 400 t … 400 t + 399 of the
  propagation matrix's copy A and of the partial result P so far, and the whole of the features Y propagated by the
  hop before and of one weight band T. It writes back the same rows of two arrays: the features propagated once more,
  A · Y, and the partial result with this hop's share added. Every row lies in exactly the block numbered by its
  quotient by 400, so the blocks fill the arrays and each ends as one function of the four inputs.
-/
import proofs.«150744_g3178275799593_cont_9to1_1439_4_alg».proof.Proof.Gen.KernelIdeal.Frame
import proofs.«150744_g3178275799593_cont_9to1_1439_4_alg».proof.Proof.Payloads
import proofs.«150744_g3178275799593_cont_9to1_1439_4_alg».proof.Proof.Spec
import Idealize.ShloMosaic.Lib.Pipeline.Value
import Idealize.ShloMosaic.Lib.ValueIdx

set_option maxRecDepth 16384

open scoped BigOperators

noncomputable section

namespace Cert.KernelIdeal.HopMid

open Cert.KernelIdeal Cert.KernelIdeal.Gen Cert.KernelIdeal.Bodies Cert.Hops
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 25 points: the row-blocked windows sit at block (t, 0), the windows
    held whole at block (0, 0). -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of block `t` is a row of the array. -/
theorem row_lt (t : Fin cfg1.N) (p : Fin 400) : 400 * t.val + p.val < 10000 := by
  have hN : cfg1.N = 25 := N_1
  have ht : t.val < cfg1.N := t.isLt
  have hp : p.val < 400 := p.isLt
  omega

/-- Row `p` of block `t`, as a row of the array. -/
abbrev row (t : Fin cfg1.N) (p : Fin 400) : Fin 10000 := ⟨400 * t.val + p.val, row_lt t p⟩

/-! ## Each input window's block, read off its array -/

/-- Block `t` of the propagation matrix's copy is its rows 400 t … 400 t + 399. -/
theorem blockA (c : Dev nD) (t : Fin cfg1.N) (p : Fin 400) (k : Fin 10000) :
    (iblk1 V c 0 t : Vec Ideal S400x10000 .bf16) (ix2 p k) = (V c main_call0_v7_2 : S10000x10000.Idx → EReal) (ix2 (row t p) k) := by
  obtain ⟨h0, h1, -⟩ := idx t
  unfold iblk1
  rw [View.read_apply]
  show (V c main_call0_v7_2 : S10000x10000.Idx → EReal) _ = (V c main_call0_v7_2 : S10000x10000.Idx → EReal) _
  refine congrArg (V c main_call0_v7_2 : S10000x10000.Idx → EReal) ?_
  funext a
  apply Fin.ext
  match a with
  | ⟨0, _⟩ => show win1_0.index t (0 : Fin 2) * 400 + 1 * p.val = 400 * t.val + p.val; rw [h0]; omega
  | ⟨1, _⟩ => show win1_0.index t (1 : Fin 2) * 10000 + 1 * k.val = k.val; rw [h1]; omega

/-- The features from the hop before are held whole. -/
theorem blockY (c : Dev nD) (t : Fin cfg1.N) (k : Fin 10000) (d : Fin 128) :
    (iblk1 V c 1 t : Vec Ideal S10000x128 .bf16) (ix2 k d) = (V c main_call0_v7_1 : S10000x128.Idx → EReal) (ix2 k d) := by
  obtain ⟨-, -, h0, h1, -⟩ := idx t
  unfold iblk1
  rw [View.read_apply]
  show (V c main_call0_v7_1 : S10000x128.Idx → EReal) _ = (V c main_call0_v7_1 : S10000x128.Idx → EReal) _
  refine congrArg (V c main_call0_v7_1 : S10000x128.Idx → EReal) ?_
  funext a
  apply Fin.ext
  match a with
  | ⟨0, _⟩ => show win1_1.index t (0 : Fin 2) * 10000 + 1 * k.val = k.val; rw [h0]; omega
  | ⟨1, _⟩ => show win1_1.index t (1 : Fin 2) * 128 + 1 * d.val = d.val; rw [h1]; omega

/-- Block `t` of the partial result so far is its rows 400 t … 400 t + 399. -/
theorem blockP (c : Dev nD) (t : Fin cfg1.N) (p : Fin 400) (o : Fin 128) :
    (iblk1 V c 2 t : Vec Ideal S400x128 .f32) (ix2 p o) = (V c main_call0_v7_0 : S10000x128.Idx → EReal) (ix2 (row t p) o) := by
  obtain ⟨-, -, -, -, h0, h1, -⟩ := idx t
  unfold iblk1
  rw [View.read_apply]
  show (V c main_call0_v7_0 : S10000x128.Idx → EReal) _ = (V c main_call0_v7_0 : S10000x128.Idx → EReal) _
  refine congrArg (V c main_call0_v7_0 : S10000x128.Idx → EReal) ?_
  funext a
  apply Fin.ext
  match a with
  | ⟨0, _⟩ => show win1_2.index t (0 : Fin 2) * 400 + 1 * p.val = 400 * t.val + p.val; rw [h0]; omega
  | ⟨1, _⟩ => show win1_2.index t (1 : Fin 2) * 128 + 1 * o.val = o.val; rw [h1]; omega

/-- The weight band is held whole. -/
theorem blockT (c : Dev nD) (t : Fin cfg1.N) (d : Fin 128) (o : Fin 128) :
    (iblk1 V c 3 t : Vec Ideal S128x128 .f32) (ix2 d o) = (V c main_call0_v4 : S128x128.Idx → EReal) (ix2 d o) := by
  obtain ⟨-, -, -, -, -, -, h0, h1, -⟩ := idx t
  unfold iblk1
  rw [View.read_apply]
  show (V c main_call0_v4 : S128x128.Idx → EReal) _ = (V c main_call0_v4 : S128x128.Idx → EReal) _
  refine congrArg (V c main_call0_v4 : S128x128.Idx → EReal) ?_
  funext a
  apply Fin.ext
  match a with
  | ⟨0, _⟩ => show win1_3.index t (0 : Fin 2) * 128 + 1 * d.val = d.val; rw [h0]; omega
  | ⟨1, _⟩ => show win1_3.index t (1 : Fin 2) * 128 + 1 * o.val = o.val; rw [h1]; omega

/-! ## The partial result with this hop's share added (output window 4) -/

/-- Where entry (p, o) of block `t` sits in the array. -/
theorem embPart (t : Fin cfg1.N) (p : Fin 400) (o : Fin 128) :
    ((cfg1.win 4).blk t).view.emb (ix2 p o) = (ix2 (row t p) o : S10000x128.Idx) := by
  obtain ⟨-, -, -, -, -, -, -, -, h0, h1, -⟩ := idx t
  funext a
  apply Fin.ext
  match a with
  | ⟨0, _⟩ => show win1_4.index t (0 : Fin 2) * 400 + 1 * p.val = 400 * t.val + p.val; rw [h0]; omega
  | ⟨1, _⟩ => show win1_4.index t (1 : Fin 2) * 128 + 1 * o.val = o.val; rw [h1]; omega

/-- What point `t` writes back is block `t` of the partial result with this hop's share added. -/
theorem flushedPart (c : Dev nD) (t : Fin cfg1.N) :
    (dat1 V c).flushed 4 t = ((cfg1.win 4).blk t).view.read (Elt Ideal)
      (next (V c main_call0_v7_0) (V c main_call0_v7_2) (V c main_call0_v7_1) (V c main_call0_v4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S400x128) hz,
    View.ld_unit_zero (S := S128x128) hz]
  funext j
  obtain ⟨p, o, rfl⟩ : ∃ (p : Fin 400) (o : Fin 128), j = ix2 p o := ⟨j 0, j 1, eq_ix2 j⟩
  show k1_pay3 (iblk1 V c 0 t) (iblk1 V c 1 t) (iblk1 V c 2 t) (iblk1 V c 3 t) (ix2 p o)
    = next (V c main_call0_v7_0) (V c main_call0_v7_2) (V c main_call0_v7_1) (V c main_call0_v4)
        (((cfg1.win 4).blk t).view.emb (ix2 p o))
  rw [embPart t p o]
  refine (next_apply (iblk1 V c 0 t) (iblk1 V c 1 t) (iblk1 V c 2 t) (iblk1 V c 3 t) p o).trans ?_
  unfold next share hop
  refine congrArg₂ (· + ·) ?_ ?_
  · exact blockP V c t p o
  · exact Finset.sum_congr rfl fun d _ => congrArg₂ (· * ·)
      (Finset.sum_congr rfl fun k _ => congrArg₂ (· * ·) (blockA V c t p k) (blockY V c t k d)) (blockT V c t d o)

/-- An index is in point `t`'s block iff each coordinate is in the block's range on its axis. -/
theorem memPart (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_call0_v8_0).slice (win1_4.rect t)).set ↔ _
  rw [View.set_slice_whole, Rect.mem_set_unit]
  exact Iff.rfl

/-- Every row is in the block numbered by its quotient by 400. -/
theorem coverPart (i : S10000x128.Idx) :
    ∃ t : Fin cfg1.N, (cfg1.win 4).flush t = true ∧ i ∈ ((cfg1.win 4).blk t).view.set := by
  have hi0 : (i 0).val < 10000 := idx2_lt0 i
  have hi1 : (i 1).val < 128 := idx2_lt1 i
  have hN : cfg1.N = 25 := N_1
  have hq : (i 0).val / 400 < cfg1.N := by rw [hN]; omega
  obtain ⟨-, -, -, -, -, -, -, -, h0, h1, -⟩ := idx ⟨(i 0).val / 400, hq⟩
  have h0' : win1_4.index ⟨(i 0).val / 400, hq⟩ (0 : Fin 2) = (i 0).val / 400 := h0
  refine ⟨⟨(i 0).val / 400, hq⟩, flush1_4 _, ?_⟩
  rw [memPart]
  intro a
  match a with
  | ⟨0, _⟩ =>
    show win1_4.index ⟨(i 0).val / 400, hq⟩ (0 : Fin 2) * 400 ≤ (i 0).val
      ∧ (i 0).val < win1_4.index ⟨(i 0).val / 400, hq⟩ (0 : Fin 2) * 400 + 400
    rw [h0']; omega
  | ⟨1, _⟩ =>
    show win1_4.index ⟨(i 0).val / 400, hq⟩ (1 : Fin 2) * 128 ≤ (i 1).val
      ∧ (i 1).val < win1_4.index ⟨(i 0).val / 400, hq⟩ (1 : Fin 2) * 128 + 128
    rw [h1]; omega

/-- The partial-result array after the region. -/
theorem finalPart (c : Dev nD) :
    (dat1 V c).arrAt 4 cfg1.N
      = next (V c main_call0_v7_0) (V c main_call0_v7_2) (V c main_call0_v7_1) (V c main_call0_v4) :=
  (dat1 V c).arrAt_eq_of_cover 4 _ (fun t _ => flushedPart V c t) coverPart

/-! ## The features propagated once more (output window 5) -/

theorem embFeat (t : Fin cfg1.N) (p : Fin 400) (d : Fin 128) :
    ((cfg1.win 5).blk t).view.emb (ix2 p d) = (ix2 (row t p) d : S10000x128.Idx) := by
  obtain ⟨-, -, -, -, -, -, -, -, -, -, h0, h1⟩ := idx t
  funext a
  apply Fin.ext
  match a with
  | ⟨0, _⟩ => show win1_5.index t (0 : Fin 2) * 400 + 1 * p.val = 400 * t.val + p.val; rw [h0]; omega
  | ⟨1, _⟩ => show win1_5.index t (1 : Fin 2) * 128 + 1 * d.val = d.val; rw [h1]; omega

/-- What point `t` writes back is block `t` of `A · Y`. -/
theorem flushedFeat (c : Dev nD) (t : Fin cfg1.N) :
    (dat1 V c).flushed 5 t = ((cfg1.win 5).blk t).view.read (Elt Ideal) (hop (V c main_call0_v7_2) (V c main_call0_v7_1)) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x128) hz]
  funext j
  obtain ⟨p, d, rfl⟩ : ∃ (p : Fin 400) (d : Fin 128), j = ix2 p d := ⟨j 0, j 1, eq_ix2 j⟩
  show k1_pay2 (iblk1 V c 0 t) (iblk1 V c 1 t) (ix2 p d)
    = hop (V c main_call0_v7_2) (V c main_call0_v7_1) (((cfg1.win 5).blk t).view.emb (ix2 p d))
  rw [embFeat t p d]
  refine (prop400_stored_apply (iblk1 V c 0 t) (iblk1 V c 1 t) p d).trans ?_
  unfold hop
  exact Finset.sum_congr rfl fun k _ => congrArg₂ (· * ·) (blockA V c t p k) (blockY V c t k d)

theorem memFeat (t : Fin cfg1.N) (i : S10000x128.Idx) :
    i ∈ ((cfg1.win 5).blk t).view.set ↔ ∀ a : Fin 2, win1_5.index t a * S400x128.size a ≤ (i a).val
      ∧ (i a).val < win1_5.index t a * S400x128.size a + S400x128.size a := by
  show i ∈ ((View.whole main_call0_v8_1).slice (win1_5.rect t)).set ↔ _
  rw [View.set_slice_whole, Rect.mem_set_unit]
  exact Iff.rfl

theorem coverFeat (i : S10000x128.Idx) :
    ∃ t : Fin cfg1.N, (cfg1.win 5).flush t = true ∧ i ∈ ((cfg1.win 5).blk t).view.set := by
  have hi0 : (i 0).val < 10000 := idx2_lt0 i
  have hi1 : (i 1).val < 128 := idx2_lt1 i
  have hN : cfg1.N = 25 := N_1
  have hq : (i 0).val / 400 < cfg1.N := by rw [hN]; omega
  obtain ⟨-, -, -, -, -, -, -, -, -, -, h0, h1⟩ := idx ⟨(i 0).val / 400, hq⟩
  have h0' : win1_5.index ⟨(i 0).val / 400, hq⟩ (0 : Fin 2) = (i 0).val / 400 := h0
  refine ⟨⟨(i 0).val / 400, hq⟩, flush1_5 _, ?_⟩
  rw [memFeat]
  intro a
  match a with
  | ⟨0, _⟩ =>
    show win1_5.index ⟨(i 0).val / 400, hq⟩ (0 : Fin 2) * 400 ≤ (i 0).val
      ∧ (i 0).val < win1_5.index ⟨(i 0).val / 400, hq⟩ (0 : Fin 2) * 400 + 400
    rw [h0']; omega
  | ⟨1, _⟩ =>
    show win1_5.index ⟨(i 0).val / 400, hq⟩ (1 : Fin 2) * 128 ≤ (i 1).val
      ∧ (i 1).val < win1_5.index ⟨(i 0).val / 400, hq⟩ (1 : Fin 2) * 128 + 128
    rw [h1]; omega

/-- The propagated-features array after the region. -/
theorem finalFeat (c : Dev nD) :
    (dat1 V c).arrAt 5 cfg1.N = hop (V c main_call0_v7_2) (V c main_call0_v7_1) :=
  (dat1 V c).arrAt_eq_of_cover 5 _ (fun t _ => flushedFeat V c t) coverFeat

end Cert.KernelIdeal.HopMid

end
-- ==== Proof.HopLast.lean ====
/-
  The last hop's array, as one function of what its kernel finds.

  The kernel runs once per block of 400 rows, 25 blocks in all. At block t it is handed rows 400 t … 400 t + 399 of the
  propagation matrix's copy A and of the partial result P so far, and the whole of the features Y propagated twice and
  of the last weight band T. It propagates Y once more, keeps the propagated rows to itself, and writes back the rows
  of the partial result with their share added. Every row lies in exactly the block numbered by its quotient by 400, so
  the blocks fill the result array.
-/
import proofs.«150744_g3178275799593_cont_9to1_1439_4_alg».proof.Proof.Gen.KernelIdeal.Frame
import proofs.«150744_g3178275799593_cont_9to1_1439_4_alg».proof.Proof.Payloads
import proofs.«150744_g3178275799593_cont_9to1_1439_4_alg».proof.Proof.Spec
import Idealize.ShloMosaic.Lib.Pipeline.Value
import Idealize.ShloMosaic.Lib.ValueIdx

set_option maxRecDepth 16384

open scoped BigOperators

noncomputable section

namespace Cert.KernelIdeal.HopLast

open Cert.KernelIdeal Cert.KernelIdeal.Gen Cert.KernelIdeal.Bodies Cert.Hops
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 25 points: the row-blocked windows sit at block (t, 0), the windows
    held whole at block (0, 0). -/
theorem idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of block `t` is a row of the array. -/
theorem row_lt (t : Fin cfg2.N) (p : Fin 400) : 400 * t.val + p.val < 10000 := by
  have hN : cfg2.N = 25 := N_2
  have ht : t.val < cfg2.N := t.isLt
  have hp : p.val < 400 := p.isLt
  omega

/-- Row `p` of block `t`, as a row of the array. -/
abbrev row (t : Fin cfg2.N) (p : Fin 400) : Fin 10000 := ⟨400 * t.val + p.val, row_lt t p⟩

/-! ## Each input window's block, read off its array -/

/-- Block `t` of the propagation matrix's copy is its rows 400 t … 400 t + 399. -/
theorem blockA (c : Dev nD) (t : Fin cfg2.N) (p : Fin 400) (k : Fin 10000) :
    (iblk2 V c 0 t : Vec Ideal S400x10000 .bf16) (ix2 p k) = (V c main_call0_v7_2 : S10000x10000.Idx → EReal) (ix2 (row t p) k) := by
  obtain ⟨h0, h1, -⟩ := idx t
  unfold iblk2
  rw [View.read_apply]
  show (V c main_call0_v7_2 : S10000x10000.Idx → EReal) _ = (V c main_call0_v7_2 : S10000x10000.Idx → EReal) _
  refine congrArg (V c main_call0_v7_2 : S10000x10000.Idx → EReal) ?_
  funext a
  apply Fin.ext
  match a with
  | ⟨0, _⟩ => show win2_0.index t (0 : Fin 2) * 400 + 1 * p.val = 400 * t.val + p.val; rw [h0]; omega
  | ⟨1, _⟩ => show win2_0.index t (1 : Fin 2) * 10000 + 1 * k.val = k.val; rw [h1]; omega

/-- The features propagated twice are held whole. -/
theorem blockY (c : Dev nD) (t : Fin cfg2.N) (k : Fin 10000) (d : Fin 128) :
    (iblk2 V c 1 t : Vec Ideal S10000x128 .bf16) (ix2 k d) = (V c main_call0_v8_1 : S10000x128.Idx → EReal) (ix2 k d) := by
  obtain ⟨-, -, h0, h1, -⟩ := idx t
  unfold iblk2
  rw [View.read_apply]
  show (V c main_call0_v8_1 : S10000x128.Idx → EReal) _ = (V c main_call0_v8_1 : S10000x128.Idx → EReal) _
  refine congrArg (V c main_call0_v8_1 : S10000x128.Idx → EReal) ?_
  funext a
  apply Fin.ext
  match a with
  | ⟨0, _⟩ => show win2_1.index t (0 : Fin 2) * 10000 + 1 * k.val = k.val; rw [h0]; omega
  | ⟨1, _⟩ => show win2_1.index t (1 : Fin 2) * 128 + 1 * d.val = d.val; rw [h1]; omega

/-- Block `t` of the partial result so far is its rows 400 t … 400 t + 399. -/
theorem blockP (c : Dev nD) (t : Fin cfg2.N) (p : Fin 400) (o : Fin 128) :
    (iblk2 V c 2 t : Vec Ideal S400x128 .f32) (ix2 p o) = (V c main_call0_v8_0 : S10000x128.Idx → EReal) (ix2 (row t p) o) := by
  obtain ⟨-, -, -, -, h0, h1, -⟩ := idx t
  unfold iblk2
  rw [View.read_apply]
  show (V c main_call0_v8_0 : S10000x128.Idx → EReal) _ = (V c main_call0_v8_0 : S10000x128.Idx → EReal) _
  refine congrArg (V c main_call0_v8_0 : S10000x128.Idx → EReal) ?_
  funext a
  apply Fin.ext
  match a with
  | ⟨0, _⟩ => show win2_2.index t (0 : Fin 2) * 400 + 1 * p.val = 400 * t.val + p.val; rw [h0]; omega
  | ⟨1, _⟩ => show win2_2.index t (1 : Fin 2) * 128 + 1 * o.val = o.val; rw [h1]; omega

/-- The last weight band is held whole. -/
theorem blockT (c : Dev nD) (t : Fin cfg2.N) (d : Fin 128) (o : Fin 128) :
    (iblk2 V c 3 t : Vec Ideal S128x128 .f32) (ix2 d o) = (V c main_call0_v5 : S128x128.Idx → EReal) (ix2 d o) := by
  obtain ⟨-, -, -, -, -, -, h0, h1, -⟩ := idx t
  unfold iblk2
  rw [View.read_apply]
  show (V c main_call0_v5 : S128x128.Idx → EReal) _ = (V c main_call0_v5 : S128x128.Idx → EReal) _
  refine congrArg (V c main_call0_v5 : S128x128.Idx → EReal) ?_
  funext a
  apply Fin.ext
  match a with
  | ⟨0, _⟩ => show win2_3.index t (0 : Fin 2) * 128 + 1 * d.val = d.val; rw [h0]; omega
  | ⟨1, _⟩ => show win2_3.index t (1 : Fin 2) * 128 + 1 * o.val = o.val; rw [h1]; omega

/-! ## The result (output window 4) -/

/-- Where entry (p, o) of block `t` sits in the array. -/
theorem embOut (t : Fin cfg2.N) (p : Fin 400) (o : Fin 128) :
    ((cfg2.win 4).blk t).view.emb (ix2 p o) = (ix2 (row t p) o : S10000x128.Idx) := by
  obtain ⟨-, -, -, -, -, -, -, -, h0, h1⟩ := idx t
  funext a
  apply Fin.ext
  match a with
  | ⟨0, _⟩ => show win2_4.index t (0 : Fin 2) * 400 + 1 * p.val = 400 * t.val + p.val; rw [h0]; omega
  | ⟨1, _⟩ => show win2_4.index t (1 : Fin 2) * 128 + 1 * o.val = o.val; rw [h1]; omega

/-- What point `t` writes back is block `t` of the partial result with the last share added. -/
theorem flushedOut (c : Dev nD) (t : Fin cfg2.N) :
    (dat2 V c).flushed 4 t = ((cfg2.win 4).blk t).view.read (Elt Ideal)
      (next (V c main_call0_v8_0) (V c main_call0_v7_2) (V c main_call0_v8_1) (V c main_call0_v5)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz, View.ld_unit_zero (S := S400x128) hz,
    View.ld_unit_zero (S := S128x128) hz]
  funext j
  obtain ⟨p, o, rfl⟩ : ∃ (p : Fin 400) (o : Fin 128), j = ix2 p o := ⟨j 0, j 1, eq_ix2 j⟩
  show k2_pay1 (iblk2 V c 0 t) (iblk2 V c 1 t) (iblk2 V c 2 t) (iblk2 V c 3 t) (ix2 p o)
    = next (V c main_call0_v8_0) (V c main_call0_v7_2) (V c main_call0_v8_1) (V c main_call0_v5)
        (((cfg2.win 4).blk t).view.emb (ix2 p o))
  rw [embOut t p o]
  refine (last_apply (iblk2 V c 0 t) (iblk2 V c 1 t) (iblk2 V c 2 t) (iblk2 V c 3 t) p o).trans ?_
  unfold next share hop
  refine congrArg₂ (· + ·) ?_ ?_
  · exact blockP V c t p o
  · exact Finset.sum_congr rfl fun d _ => congrArg₂ (· * ·)
      (Finset.sum_congr rfl fun k _ => congrArg₂ (· * ·) (blockA V c t p k) (blockY V c t k d)) (blockT V c t d o)

/-- An index is in point `t`'s block iff each coordinate is in the block's range on its axis. -/
theorem memOut (t : Fin cfg2.N) (i : S10000x128.Idx) :
    i ∈ ((cfg2.win 4).blk t).view.set ↔ ∀ a : Fin 2, win2_4.index t a * S400x128.size a ≤ (i a).val
      ∧ (i a).val < win2_4.index t a * S400x128.size a + S400x128.size a := by
  show i ∈ ((View.whole main_v0).slice (win2_4.rect t)).set ↔ _
  rw [View.set_slice_whole, Rect.mem_set_unit]
  exact Iff.rfl

/-- Every row is in the block numbered by its quotient by 400. -/
theorem coverOut (i : S10000x128.Idx) :
    ∃ t : Fin cfg2.N, (cfg2.win 4).flush t = true ∧ i ∈ ((cfg2.win 4).blk t).view.set := by
  have hi0 : (i 0).val < 10000 := idx2_lt0 i
  have hi1 : (i 1).val < 128 := idx2_lt1 i
  have hN : cfg2.N = 25 := N_2
  have hq : (i 0).val / 400 < cfg2.N := by rw [hN]; omega
  obtain ⟨-, -, -, -, -, -, -, -, h0, h1⟩ := idx ⟨(i 0).val / 400, hq⟩
  have h0' : win2_4.index ⟨(i 0).val / 400, hq⟩ (0 : Fin 2) = (i 0).val / 400 := h0
  refine ⟨⟨(i 0).val / 400, hq⟩, flush2_4 _, ?_⟩
  rw [memOut]
  intro a
  match a with
  | ⟨0, _⟩ =>
    show win2_4.index ⟨(i 0).val / 400, hq⟩ (0 : Fin 2) * 400 ≤ (i 0).val
      ∧ (i 0).val < win2_4.index ⟨(i 0).val / 400, hq⟩ (0 : Fin 2) * 400 + 400
    rw [h0']; omega
  | ⟨1, _⟩ =>
    show win2_4.index ⟨(i 0).val / 400, hq⟩ (1 : Fin 2) * 128 ≤ (i 1).val
      ∧ (i 1).val < win2_4.index ⟨(i 0).val / 400, hq⟩ (1 : Fin 2) * 128 + 128
    rw [h1]; omega

/-- The result array after the region. -/
theorem finalOut (c : Dev nD) :
    (dat2 V c).arrAt 4 cfg2.N
      = next (V c main_call0_v8_0) (V c main_call0_v7_2) (V c main_call0_v8_1) (V c main_call0_v5) :=
  (dat2 V c).arrAt_eq_of_cover 4 _ (fun t _ => flushedOut V c t) coverOut

end Cert.KernelIdeal.HopLast

end
-- ==== Proof.KernelValue.lean ====
/-
  The result array, walked back to the launch memory.

  Write x, A, W, b for what the four argument buffers hold at launch. The host stretch leaves the arguments alone
  and fills six buffers: the features in the shorter format (the same numbers at the extended reals), the four bands of
  128 rows of the transposed weights (band s holds W(o, 128 s + d) at (d, o)), and the bias as a matrix of one row.
  The first hop's kernel then leaves the partial result b + x·band₀ + (A x)·band₁, the propagated features y₁ = A x
  and a copy of A; no later segment writes those three buffers, nor the bands. The middle hop reads them and leaves
  the partial result with (A y₁)·band₂ added and y₂ = A y₁; the last hop reads those and leaves, in the result buffer,
  the partial result with (A y₂)·band₃ added. That is the specification's function of x, A, W and b.
-/
import proofs.«150744_g3178275799593_cont_9to1_1439_4_alg».proof.Proof.KernelRun
import proofs.«150744_g3178275799593_cont_9to1_1439_4_alg».proof.Proof.HopFirst
import proofs.«150744_g3178275799593_cont_9to1_1439_4_alg».proof.Proof.HopMid
import proofs.«150744_g3178275799593_cont_9to1_1439_4_alg».proof.Proof.HopLast
import proofs.«150744_g3178275799593_cont_9to1_1439_4_alg».proof.Proof.Spec
import Idealize.ShloMosaic.Lib.ValueLayout
import Idealize.ShloMosaic.Lib.StableHlo.Run

set_option maxRecDepth 16384

open scoped BigOperators

noncomputable section

namespace Cert.KernelIdeal.Whole

open Cert.KernelIdeal Cert.KernelIdeal.Gen Cert.Hops
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the host stretch leaves -/

/-- The features are as launched. -/
theorem hostX (c : Dev nD) :
    (V1 m ρ c main_arg0 : S10000x128.Idx → EReal) = ((m ((c : Thread nD τ).loc main_arg0)) : S10000x128.Idx → EReal) := by
  show StableHlo.after hostOps0 (W0 m ρ c) (Proc.devRef .tc main_arg0) = _
  dsimp only [hostOps0]
  after_results

/-- The propagation matrix is as launched. -/
theorem hostA (c : Dev nD) :
    (V1 m ρ c main_arg1 : S10000x10000.Idx → EReal) = ((m ((c : Thread nD τ).loc main_arg1)) : S10000x10000.Idx → EReal) := by
  show StableHlo.after hostOps0 (W0 m ρ c) (Proc.devRef .tc main_arg1) = _
  dsimp only [hostOps0]
  after_results

/-- The features in the shorter format are the features. -/
theorem hostFeat (c : Dev nD) :
    (V1 m ρ c main_call0_v0 : S10000x128.Idx → EReal) = ((m ((c : Thread nD τ).loc main_arg0)) : S10000x128.Idx → EReal) := by
  show StableHlo.after hostOps0 (W0 m ρ c) (Proc.devRef .tc main_call0_v0) = _
  dsimp only [hostOps0]
  after_results
  rfl

/-- A band of 128 rows of the transposed weights, cut at row `off`, is `band W off`. -/
theorem band_of_slice (W : S128x512.Idx → EReal) (off : ℕ) (hoff : off + 128 ≤ 512)
    (hs : S512x128.Slices ![off, 0] S128x128) :
    extractStridedSlice S128x128 ![off, 0] (transpose S512x128 [1, 0] W transposes_S128x512_S512x128_1_0) hs
      = band W off hoff := by
  funext i
  obtain ⟨d, o, rfl⟩ : ∃ (d : Fin 128) (o : Fin 128), i = ix2 d o := ⟨i 0, i 1, eq_ix2 i⟩
  have hd : d.val < 128 := d.isLt
  refine (slice2_axis0_apply off _ hs d o ⟨off + d.val, by omega⟩ rfl).trans ?_
  refine (transpose_ix2_apply W transposes_S128x512_S512x128_1_0 ⟨off + d.val, by omega⟩ o).trans ?_
  rfl

theorem hostBand0 (c : Dev nD) :
    (V1 m ρ c main_call0_v2 : S128x128.Idx → EReal) = band (m ((c : Thread nD τ).loc main_arg2)) 0 (by omega) := by
  show StableHlo.after hostOps0 (W0 m ρ c) (Proc.devRef .tc main_call0_v2) = _
  dsimp only [hostOps0]
  after_results
  exact band_of_slice (m ((c : Thread nD τ).loc main_arg2)) 0 (by omega) slices_S512x128_S128x128_0_0

theorem hostBand1 (c : Dev nD) :
    (V1 m ρ c main_call0_v3 : S128x128.Idx → EReal) = band (m ((c : Thread nD τ).loc main_arg2)) 128 (by omega) := by
  show StableHlo.after hostOps0 (W0 m ρ c) (Proc.devRef .tc main_call0_v3) = _
  dsimp only [hostOps0]
  after_results
  exact band_of_slice (m ((c : Thread nD τ).loc main_arg2)) 128 (by omega) slices_S512x128_S128x128_128_0

theorem hostBand2 (c : Dev nD) :
    (V1 m ρ c main_call0_v4 : S128x128.Idx → EReal) = band (m ((c : Thread nD τ).loc main_arg2)) 256 (by omega) := by
  show StableHlo.after hostOps0 (W0 m ρ c) (Proc.devRef .tc main_call0_v4) = _
  dsimp only [hostOps0]
  after_results
  exact band_of_slice (m ((c : Thread nD τ).loc main_arg2)) 256 (by omega) slices_S512x128_S128x128_256_0

theorem hostBand3 (c : Dev nD) :
    (V1 m ρ c main_call0_v5 : S128x128.Idx → EReal) = band (m ((c : Thread nD τ).loc main_arg2)) 384 (by omega) := by
  show StableHlo.after hostOps0 (W0 m ρ c) (Proc.devRef .tc main_call0_v5) = _
  dsimp only [hostOps0]
  after_results
  exact band_of_slice (m ((c : Thread nD τ).loc main_arg2)) 384 (by omega) slices_S512x128_S128x128_384_0

/-- The bias as a matrix of one row. -/
abbrev biasRow (b : S128.Idx → EReal) : Mat 1 128 := fun i => b (ix1 (i 1))

theorem hostBias (c : Dev nD) :
    (V1 m ρ c main_call0_v6 : S1x128.Idx → EReal) = biasRow (m ((c : Thread nD τ).loc main_arg3)) := by
  show StableHlo.after hostOps0 (W0 m ρ c) (Proc.devRef .tc main_call0_v6) = _
  dsimp only [hostOps0]
  after_results
  funext i
  obtain ⟨z, o, rfl⟩ : ∃ (z : Fin 1) (o : Fin 128), i = ix2 z o := ⟨i 0, i 1, eq_ix2 i⟩
  exact shapeCast_a_1a_apply ((m ((c : Thread nD τ).loc main_arg3)) : S128.Idx → EReal) shapeCasts_S128_S1x128 z o

/-! ## After the first hop -/

theorem part1 (c : Dev nD) :
    (V2 m ρ c main_call0_v7_0 : S10000x128.Idx → EReal)
      = first (m ((c : Thread nD τ).loc main_arg1)) (m ((c : Thread nD τ).loc main_arg0)) (m ((c : Thread nD τ).loc main_arg0))
          (band (m ((c : Thread nD τ).loc main_arg2)) 0 (by omega)) (band (m ((c : Thread nD τ).loc main_arg2)) 128 (by omega)) (biasRow (m ((c : Thread nD τ).loc main_arg3))) := by
  refine ((W2_arr m ρ c 6).trans (HopFirst.finalPart (V1 m ρ) c)).trans ?_
  rw [hostA m ρ c, hostFeat m ρ c, hostX m ρ c, hostBand0 m ρ c, hostBand1 m ρ c, hostBias m ρ c]

theorem feat1 (c : Dev nD) :
    (V2 m ρ c main_call0_v7_1 : S10000x128.Idx → EReal) = hop (m ((c : Thread nD τ).loc main_arg1)) (m ((c : Thread nD τ).loc main_arg0)) := by
  refine ((W2_arr m ρ c 7).trans (HopFirst.finalFeat (V1 m ρ) c)).trans ?_
  rw [hostA m ρ c, hostFeat m ρ c]

theorem copy1 (c : Dev nD) :
    (V2 m ρ c main_call0_v7_2 : S10000x10000.Idx → EReal) = ((m ((c : Thread nD τ).loc main_arg1)) : S10000x10000.Idx → EReal) :=
  ((W2_arr m ρ c 8).trans (HopFirst.finalCopy (V1 m ρ) c)).trans (hostA m ρ c)

theorem band2_kept (c : Dev nD) :
    (V2 m ρ c main_call0_v4 : S128x128.Idx → EReal) = band (m ((c : Thread nD τ).loc main_arg2)) 256 (by omega) :=
  (W2_of_ne m ρ c main_call0_v4 (by decide)).trans (hostBand2 m ρ c)

theorem band3_kept (c : Dev nD) :
    (V2 m ρ c main_call0_v5 : S128x128.Idx → EReal) = band (m ((c : Thread nD τ).loc main_arg2)) 384 (by omega) :=
  (W2_of_ne m ρ c main_call0_v5 (by decide)).trans (hostBand3 m ρ c)

/-! ## After the middle hop -/

theorem part2 (c : Dev nD) :
    (V3 m ρ c main_call0_v8_0 : S10000x128.Idx → EReal)
      = next (first (m ((c : Thread nD τ).loc main_arg1)) (m ((c : Thread nD τ).loc main_arg0)) (m ((c : Thread nD τ).loc main_arg0))
          (band (m ((c : Thread nD τ).loc main_arg2)) 0 (by omega)) (band (m ((c : Thread nD τ).loc main_arg2)) 128 (by omega)) (biasRow (m ((c : Thread nD τ).loc main_arg3))))
          (m ((c : Thread nD τ).loc main_arg1)) (hop (m ((c : Thread nD τ).loc main_arg1)) (m ((c : Thread nD τ).loc main_arg0))) (band (m ((c : Thread nD τ).loc main_arg2)) 256 (by omega)) := by
  refine ((W3_arr m ρ c 4).trans (HopMid.finalPart (V2 m ρ) c)).trans ?_
  rw [part1 m ρ c, copy1 m ρ c, feat1 m ρ c, band2_kept m ρ c]

theorem feat2 (c : Dev nD) :
    (V3 m ρ c main_call0_v8_1 : S10000x128.Idx → EReal)
      = hop (m ((c : Thread nD τ).loc main_arg1)) (hop (m ((c : Thread nD τ).loc main_arg1)) (m ((c : Thread nD τ).loc main_arg0))) := by
  refine ((W3_arr m ρ c 5).trans (HopMid.finalFeat (V2 m ρ) c)).trans ?_
  rw [copy1 m ρ c, feat1 m ρ c]

/-- The copy of the propagation matrix is an input of the middle hop: it ends as it was entered. -/
theorem copy2 (c : Dev nD) :
    (V3 m ρ c main_call0_v7_2 : S10000x10000.Idx → EReal) = ((m ((c : Thread nD τ).loc main_arg1)) : S10000x10000.Idx → EReal) :=
  ((W3_arr m ρ c 0).trans (((dat1 (V2 m ρ) c).arrAt_in 0 rfl _).trans (A_eq1 (V2 m ρ) c 0))).trans (copy1 m ρ c)

theorem band3_kept' (c : Dev nD) :
    (V3 m ρ c main_call0_v5 : S128x128.Idx → EReal) = band (m ((c : Thread nD τ).loc main_arg2)) 384 (by omega) :=
  (W3_of_ne m ρ c main_call0_v5 (by decide)).trans (band3_kept m ρ c)

/-! ## After the last hop -/

/-- The result buffer at the end holds the specification's function of the four arguments. -/
theorem value (c : Dev nD) :
    (W4 m ρ c (Proc.devRef .tc main_v0) : S10000x128.Idx → EReal)
      = result (m ((c : Thread nD τ).loc main_arg0)) (m ((c : Thread nD τ).loc main_arg1)) (m ((c : Thread nD τ).loc main_arg2)) (m ((c : Thread nD τ).loc main_arg3)) := by
  refine ((W4_arr m ρ c 4).trans (HopLast.finalOut (V3 m ρ) c)).trans ?_
  rw [part2 m ρ c, copy2 m ρ c, feat2 m ρ c, band3_kept' m ρ c]
  funext i
  rfl

/-- The kernel program's run with the result array at the specification's function. -/
theorem run_value : θ_run defs (onTc (τ := τ) (main (F := Ideal))) ⟨m, fun _ => 0, ρ⟩ (fun r => ∀ c : Dev nD,
      r.2.mem ((c.tc : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (value m ρ c), (h c).2⟩) (run (F := Ideal) m ρ)

end Cert.KernelIdeal.Whole

end
-- ==== Proof.RefValue.lean ====
/-
  The reference computes the same function.

  The reference propagates three times, lays the four feature matrices side by side into one with 512 columns,
  multiplies by the transposed weights and adds the bias. Its three propagation stages are the hops y₁ = A · x,
  y₂ = A · y₁, y₃ = A · y₂. Column 128 s + d of the joined matrix is yₛ(·, d), and row 128 s + d of the transposed
  weights is W(·, 128 s + d), so each stretch of 128 terms of the 512-term product is one hop's share of the layer.
  Splitting the sum into its four stretches and moving the bias from the end to the front gives the function of the
  specification.
-/
import proofs.«150744_g3178275799593_cont_9to1_1439_4_alg».proof.Proof.Gen.ReferenceIdeal.Read
import proofs.«150744_g3178275799593_cont_9to1_1439_4_alg».proof.Proof.Spec
import Idealize.ShloMosaic.Lib.Pipeline.Value
import Idealize.ShloMosaic.Lib.ValueIdx

open scoped BigOperators

noncomputable section

namespace Cert.ReferenceIdeal.RefValue

open Cert.ReferenceIdeal Cert.ReferenceIdeal.Gen Cert.ReferenceIdeal.Read Cert.Hops
open Idealize.ShloMosaic Idealize.ShloMosaic.TcCoe Idealize.ShloMosaic.ValueIdx

/-! ## The propagation stages are the hops -/

theorem stage0 (x : (⟨S10000x128, .f32⟩ : BufTy).Contents (Elt Ideal)) (A : (⟨S10000x10000, .f32⟩ : BufTy).Contents (Elt Ideal)) :
    val_main_v0 (F := Ideal) x A = hop A x := by
  funext i
  rw [val_main_v0_apply]
  show _ = ∑ k : Fin 10000, A (ix2 (i 0) k) * x (ix2 k (i 1))
  exact Finset.sum_congr rfl fun k _ => congrArg₂ (· * ·)
    (congrArg A (funext fun a => match a with | ⟨0, _⟩ => rfl | ⟨1, _⟩ => rfl))
    (congrArg x (funext fun a => match a with | ⟨0, _⟩ => rfl | ⟨1, _⟩ => rfl))

theorem stage1 (x : (⟨S10000x128, .f32⟩ : BufTy).Contents (Elt Ideal)) (A : (⟨S10000x10000, .f32⟩ : BufTy).Contents (Elt Ideal)) :
    val_main_v1 (F := Ideal) x A = hop A (hop A x) := by
  funext i
  rw [val_main_v1_apply, stage0]
  show _ = ∑ k : Fin 10000, A (ix2 (i 0) k) * hop A x (ix2 k (i 1))
  exact Finset.sum_congr rfl fun k _ => congrArg₂ (· * ·)
    (congrArg A (funext fun a => match a with | ⟨0, _⟩ => rfl | ⟨1, _⟩ => rfl))
    (congrArg (hop A x) (funext fun a => match a with | ⟨0, _⟩ => rfl | ⟨1, _⟩ => rfl))

theorem stage2 (x : (⟨S10000x128, .f32⟩ : BufTy).Contents (Elt Ideal)) (A : (⟨S10000x10000, .f32⟩ : BufTy).Contents (Elt Ideal)) :
    val_main_v2 (F := Ideal) x A = hop A (hop A (hop A x)) := by
  funext i
  rw [val_main_v2_apply, stage1]
  show _ = ∑ k : Fin 10000, A (ix2 (i 0) k) * hop A (hop A x) (ix2 k (i 1))
  exact Finset.sum_congr rfl fun k _ => congrArg₂ (· * ·)
    (congrArg A (funext fun a => match a with | ⟨0, _⟩ => rfl | ⟨1, _⟩ => rfl))
    (congrArg (hop A (hop A x)) (funext fun a => match a with | ⟨0, _⟩ => rfl | ⟨1, _⟩ => rfl))

/-! ## Four matrices side by side, read at a column -/

/-- Columns 0 … 127 of the joined rows are piece 0. -/
theorem cat0 (u0 u1 u2 u3 : S10000x128.Idx → Elt Ideal .f32) (j : S10000x512.Idx) (n : Fin 10000) (d : Fin 128)
    (hj0 : (j 0).val = n.val) (hj1 : (j 1).val = 0 + d.val) :
    concatenate S10000x512 1 [⟨S10000x128, u0⟩, ⟨S10000x128, u1⟩, ⟨S10000x128, u2⟩, ⟨S10000x128, u3⟩]
      concatenates_S10000x128_S10000x128_S10000x128_S10000x128_S10000x512_d1 j = u0 (ix2 n d) :=
  concatenate_apply_piece 1 _ _ j 0 (by show (0 : ℕ) < 4; omega) S10000x128 u0 rfl rfl 0 (by first | rfl | simp) (ix2 n d)
    (fun b hb => match b with
      | ⟨0, _⟩ => hj0.symm
      | ⟨1, _⟩ => absurd rfl hb)
    (by show 0 + d.val = (j 1).val; omega)

/-- Columns 128 … 255 of the joined rows are piece 1. -/
theorem cat1 (u0 u1 u2 u3 : S10000x128.Idx → Elt Ideal .f32) (j : S10000x512.Idx) (n : Fin 10000) (d : Fin 128)
    (hj0 : (j 0).val = n.val) (hj1 : (j 1).val = 128 + d.val) :
    concatenate S10000x512 1 [⟨S10000x128, u0⟩, ⟨S10000x128, u1⟩, ⟨S10000x128, u2⟩, ⟨S10000x128, u3⟩]
      concatenates_S10000x128_S10000x128_S10000x128_S10000x128_S10000x512_d1 j = u1 (ix2 n d) :=
  concatenate_apply_piece 1 _ _ j 1 (by show (1 : ℕ) < 4; omega) S10000x128 u1 rfl rfl 128 (by first | rfl | simp) (ix2 n d)
    (fun b hb => match b with
      | ⟨0, _⟩ => hj0.symm
      | ⟨1, _⟩ => absurd rfl hb)
    (by show 128 + d.val = (j 1).val; omega)

/-- Columns 256 … 383 of the joined rows are piece 2. -/
theorem cat2 (u0 u1 u2 u3 : S10000x128.Idx → Elt Ideal .f32) (j : S10000x512.Idx) (n : Fin 10000) (d : Fin 128)
    (hj0 : (j 0).val = n.val) (hj1 : (j 1).val = 256 + d.val) :
    concatenate S10000x512 1 [⟨S10000x128, u0⟩, ⟨S10000x128, u1⟩, ⟨S10000x128, u2⟩, ⟨S10000x128, u3⟩]
      concatenates_S10000x128_S10000x128_S10000x128_S10000x128_S10000x512_d1 j = u2 (ix2 n d) :=
  concatenate_apply_piece 1 _ _ j 2 (by show (2 : ℕ) < 4; omega) S10000x128 u2 rfl rfl 256 (by first | rfl | simp) (ix2 n d)
    (fun b hb => match b with
      | ⟨0, _⟩ => hj0.symm
      | ⟨1, _⟩ => absurd rfl hb)
    (by show 256 + d.val = (j 1).val; omega)

/-- Columns 384 … 511 of the joined rows are piece 3. -/
theorem cat3 (u0 u1 u2 u3 : S10000x128.Idx → Elt Ideal .f32) (j : S10000x512.Idx) (n : Fin 10000) (d : Fin 128)
    (hj0 : (j 0).val = n.val) (hj1 : (j 1).val = 384 + d.val) :
    concatenate S10000x512 1 [⟨S10000x128, u0⟩, ⟨S10000x128, u1⟩, ⟨S10000x128, u2⟩, ⟨S10000x128, u3⟩]
      concatenates_S10000x128_S10000x128_S10000x128_S10000x128_S10000x512_d1 j = u3 (ix2 n d) :=
  concatenate_apply_piece 1 _ _ j 3 (by show (3 : ℕ) < 4; omega) S10000x128 u3 rfl rfl 384 (by first | rfl | simp) (ix2 n d)
    (fun b hb => match b with
      | ⟨0, _⟩ => hj0.symm
      | ⟨1, _⟩ => absurd rfl hb)
    (by show 384 + d.val = (j 1).val; omega)

/-! ## The transposed weights, read at a row of a band -/

/-- Row `off + d` of the transposed weights at column `o` is the band's entry (d, o). -/
theorem wband (W : (⟨S128x512, .f32⟩ : BufTy).Contents (Elt Ideal)) (i : S10000x128.Idx) (o : Fin 128) (hio : i 1 = o)
    (off : ℕ) (hoff : off + 128 ≤ 512) (d : Fin 128) (h : off + d.val < 512) :
    val_main_v4 (F := Ideal) W (ridx_main_v5 i ⟨off + d.val, h⟩) = band W off hoff (ix2 d o) := by
  subst hio
  rw [val_main_v4_apply]
  show W _ = W (ix2 (i 1) ⟨off + d.val, _⟩)
  exact congrArg W (funext fun a => match a with | ⟨0, _⟩ => rfl | ⟨1, _⟩ => rfl)

/-! ## The reference's result -/

theorem ref_eq (x : (⟨S10000x128, .f32⟩ : BufTy).Contents (Elt Ideal)) (A : (⟨S10000x10000, .f32⟩ : BufTy).Contents (Elt Ideal))
    (W : (⟨S128x512, .f32⟩ : BufTy).Contents (Elt Ideal)) (b : (⟨S128, .f32⟩ : BufTy).Contents (Elt Ideal)) :
    val_main_v8 (F := Ideal) x A W b = result x A W b := by
  funext i
  obtain ⟨n, o, rfl⟩ : ∃ (n : Fin 10000) (o : Fin 128), i = ix2 n o := ⟨i 0, i 1, eq_ix2 i⟩
  rw [val_main_v8_apply, val_main_v5_apply, val_main_v7_apply, val_main_v6_apply, sum_four_stretches]
  show (((_ + _) + _) + _) + _ = _
  rw [bias_last]
  unfold result
  refine congrArg₂ (· + ·) (congrArg₂ (· + ·) (congrArg₂ (· + ·) (congrArg₂ (· + ·) ?_ ?_) ?_) ?_) ?_
  · exact congrArg b (funext fun a => match a with | ⟨0, _⟩ => rfl)
  · show _ = ∑ d : Fin 128, x (ix2 n d) * band W 0 (by omega) (ix2 d o)
    exact Finset.sum_congr rfl fun d _ => congrArg₂ (· * ·)
      (cat0 x (val_main_v0 (F := Ideal) x A) (val_main_v1 (F := Ideal) x A) (val_main_v2 (F := Ideal) x A) _ n d rfl rfl)
      (wband W (ix2 n o) o rfl 0 (by omega) d _)
  · show _ = ∑ d : Fin 128, hop A x (ix2 n d) * band W 128 (by omega) (ix2 d o)
    exact Finset.sum_congr rfl fun d _ => congrArg₂ (· * ·)
      ((cat1 x (val_main_v0 (F := Ideal) x A) (val_main_v1 (F := Ideal) x A) (val_main_v2 (F := Ideal) x A) _ n d rfl rfl).trans
        (congrFun (stage0 x A) _))
      (wband W (ix2 n o) o rfl 128 (by omega) d _)
  · show _ = ∑ d : Fin 128, hop A (hop A x) (ix2 n d) * band W 256 (by omega) (ix2 d o)
    exact Finset.sum_congr rfl fun d _ => congrArg₂ (· * ·)
      ((cat2 x (val_main_v0 (F := Ideal) x A) (val_main_v1 (F := Ideal) x A) (val_main_v2 (F := Ideal) x A) _ n d rfl rfl).trans
        (congrFun (stage1 x A) _))
      (wband W (ix2 n o) o rfl 256 (by omega) d _)
  · show _ = ∑ d : Fin 128, hop A (hop A (hop A x)) (ix2 n d) * band W 384 (by omega) (ix2 d o)
    exact Finset.sum_congr rfl fun d _ => congrArg₂ (· * ·)
      ((cat3 x (val_main_v0 (F := Ideal) x A) (val_main_v1 (F := Ideal) x A) (val_main_v2 (F := Ideal) x A) _ n d rfl rfl).trans
        (congrFun (stage2 x A) _))
      (wband W (ix2 n o) o rfl 384 (by omega) d _)

end Cert.ReferenceIdeal.RefValue

end
-- ==== Proof.lean ====
/-
  A graph convolution that propagates node features three hops along a dense 10000 × 10000 matrix and applies one
  linear layer to the four feature matrices laid side by side, computed by three kernel launches, against the plain
  matrix program that does the same.

  At the exact extended reals both compute, at row n and output o,
      b(o) + Σ_s Σ_d yₛ(n, d) · W(o, 128 s + d),   y₀ = x,  yₛ₊₁ = A · yₛ   (s = 0 … 3).
  The kernels never form the 512-column matrix: each hop adds its own 128-term share onto a running partial result,
  starting from the bias, while the reference forms one 512-term sum and adds the bias last. A sum over 512 positions
  is the sum of its four stretches of 128, and addition of extended reals is commutative and associative, so the two
  are equal whatever the entries are: the inputs' finiteness is never used. The kernels keep copies of A and of the
  propagated features in a shorter float format; at the extended reals a change of format is the identity.

  The pieces: Proof/Spec.lean states the function and the splitting of the sum; Proof/Payloads.lean reads each kernel
  body at an entry; Proof/HopFirst.lean, HopMid.lean and HopLast.lean turn each launch's blocks of rows into whole
  arrays; Proof/KernelRun.lean and KernelValue.lean run the kernel program and walk its result back through the three
  launches and the host operations before them to the arguments; Proof/RefValue.lean does the reference.
-/
import proofs.«150744_g3178275799593_cont_9to1_1439_4_alg».proof.Defs
import proofs.«150744_g3178275799593_cont_9to1_1439_4_alg».proof.Proof.Gen.Kernel
import proofs.«150744_g3178275799593_cont_9to1_1439_4_alg».proof.Proof.Gen.Kernel.Skeleton
import proofs.«150744_g3178275799593_cont_9to1_1439_4_alg».proof.Proof.Gen.Kernel.Launch
import proofs.«150744_g3178275799593_cont_9to1_1439_4_alg».proof.Proof.Gen.Kernel.Points
import proofs.«150744_g3178275799593_cont_9to1_1439_4_alg».proof.Proof.Gen.Kernel.Frame
import proofs.«150744_g3178275799593_cont_9to1_1439_4_alg».proof.Proof.Gen.KernelIdeal
import proofs.«150744_g3178275799593_cont_9to1_1439_4_alg».proof.Proof.Gen.KernelIdeal.Skeleton
import proofs.«150744_g3178275799593_cont_9to1_1439_4_alg».proof.Proof.Gen.KernelIdeal.Launch
import proofs.«150744_g3178275799593_cont_9to1_1439_4_alg».proof.Proof.Gen.KernelIdeal.Points
import proofs.«150744_g3178275799593_cont_9to1_1439_4_alg».proof.Proof.Gen.KernelIdeal.Frame
import proofs.«150744_g3178275799593_cont_9to1_1439_4_alg».proof.Proof.Gen.ReferenceIdeal
import proofs.«150744_g3178275799593_cont_9to1_1439_4_alg».proof.Proof.Gen.Pre_finite_inputs
import proofs.«150744_g3178275799593_cont_9to1_1439_4_alg».proof.Proof.Gen.ReferenceIdeal.Read
import proofs.«150744_g3178275799593_cont_9to1_1439_4_alg».proof.Proof.KernelValue
import proofs.«150744_g3178275799593_cont_9to1_1439_4_alg».proof.Proof.RefValue
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference is a line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories agreeing on the four arguments both programs end with the same result array: the specification's
    function of the kernel's arguments. -/
theorem algebraic : Cert.algebraic_KernelIdeal_ReferenceIdeal := by
  intro m ρ m' ρ' _ hagree
  refine ⟨fun c => Cert.Hops.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
